-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v9)) (v6 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_v3_4) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_v42) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024x512 : Shape := ⟨2, ![1024, 512]⟩
abbrev S2048x2048 : Shape := ⟨2, ![2048, 2048]⟩
abbrev S2048x512 : Shape := ⟨2, ![2048, 512]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part2 {F : FTy → Type} [FloatOps F] (main_arg7 : FVec F S2048x2048 .f32) (main_arg8 : FVec F S2048x2048 .f32) (main_arg9 : FVec F S2048x512 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x512 .f32 := Host.absf main_arg9
  let main_cst_16 : FVec F S_ .f32 := constant S_ .f32 0x7F800000#32
  let main_v45 : FVec F S2048x512 .f32 := broadcastInDim S2048x512 ![] bcast_S_S2048x512 main_cst_16
  let main_v46 : IVec S2048x512 1 := cmpf .olt main_v44 main_v45
  let main_c_17 : IVec S_ 1 := constantI S_ 1 1#1
  let main_v47 : IVec S_ 1 := (fun x v => Host.reduce IntOp.andi x v reducesTo_S2048x512_S_d0_1 h_S_) main_v46 main_c_17
  let main_v48 : IVec S_ 1 := andi main_v43 main_v47
  main_v48

def fn_part1 {F : FTy → Type} [FloatOps F] (main_arg4 : FVec F S1024x512 .f32) (main_arg5 : FVec F S1024x2048 .f32) (main_arg6 : FVec F S1024x2048 .f32) (main_arg7 : FVec F S2048x2048 .f32) (main_arg8 : FVec F S2048x2048 .f32) (main_arg9 : FVec F S2048x512 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x2048 .f32) (main_arg1 : FVec F S1024x2048 .f32) (main_arg2 : FVec F S1024x2048 .f32) (main_arg3 : FVec F S1024x2048 .f32) (main_arg4 : FVec F S1024x512 .f32) (main_arg5 : FVec F S1024x2048 .f32) (main_arg6 : FVec F S1024x2048 .f32) (main_arg7 : FVec F S2048x2048 .f32) (main_arg8 : FVec F S2048x2048 .f32) (main_arg9 : FVec F S2048x512 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_v13 main_v16
-- ==== Kernel.lean ====
abbrev S1024x2048 : Shape := ⟨2, ![1024, 2048]⟩
abbrev S1024x512 : Shape := ⟨2, ![1024, 512]⟩
abbrev S2048x2048 : Shape := ⟨2, ![2048, 2048]⟩
abbrev S2048x512 : Shape := ⟨2, ![2048, 512]⟩
abbrev S128x2048 : Shape := ⟨2, ![128, 2048]⟩
abbrev S128x512 : Shape := ⟨2, ![128, 512]⟩
abbrev S_ : Shape := ⟨0, ![]⟩

abbrev nBuf : Space → Nat
  | .hbm => 26
  | .vmem => 23
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x512, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S2048x2048, .bf16⟩
  | .hbm, ⟨11, _⟩ => ⟨S2048x2048, .bf16⟩
  | .hbm, ⟨12, _⟩ => ⟨S2048x512, .bf16⟩
  | .hbm, ⟨13, _⟩ => ⟨S1024x512, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x512, .f32⟩
  | .local _ .vmem, ⟨9, _⟩ => ⟨S128x512, .f32⟩
  | .local _ .vmem, ⟨10, _⟩ => ⟨S2048x2048, .bf16⟩
  | .local _ .vmem, ⟨11, _⟩ => ⟨S2048x2048, .bf16⟩
  | .local _ .vmem, ⟨12, _⟩ => ⟨S2048x512, .bf16⟩
  | .local _ .vmem, ⟨13, _⟩ => ⟨S128x512, .f32⟩
  | .local _ .vmem, ⟨14, _⟩ => ⟨S128x512, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S128x512_S128x512_0_0 : ∀ a, (![0, 0] : Fin 2 → Nat) a + S128x512.size a ≤ S128x512.size a
  h_S128x512 : 0 < S128x512.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  natLt_1_32 : 1 < 32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bcast_S_S1024x2048 : S_.BroadcastsInDim S1024x2048 (![] : Fin 0 → Fin S1024x2048.rank)
  dot_S128x2048_S2048x2048_S128x2048_1_0_0_1_n_n_wf : DotDims.WF S128x2048 S2048x2048 S128x2048 [1] [0] [0] [1] [] []
  dot_S128x2048_S2048x512_S128x512_1_0_0_1_n_n_wf : DotDims.WF S128x2048 S2048x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S1024x2048.size a
  hwx0_0 : ∀ i : grid0.Coords, EltTy.bits .f32 = 32 ∨ (Rect.block (s := S1024x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S1024x2048.size a
  hwx0_1 : ∀ i : grid0.Coords, EltTy.bits .f32 = 32 ∨ (Rect.block (s := S1024x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S1024x2048.size a
  hwx0_2 : ∀ i : grid0.Coords, EltTy.bits .f32 = 32 ∨ (Rect.block (s := S1024x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S1024x2048.size a
  hwx0_3 : ∀ i : grid0.Coords, EltTy.bits .f32 = 32 ∨ (Rect.block (s := S1024x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S1024x512.size a
  hwx0_4 : ∀ i : grid0.Coords, EltTy.bits .f32 = 32 ∨ (Rect.block (s := S1024x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x512.size a
  hwx0_7 : ∀ i : grid0.Coords, EltTy.bits .bf16 = 32 ∨ (Rect.block (s := S2048x512) S2048x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S1024x512.size a
  hwx0_8 : ∀ i : grid0.Coords, EltTy.bits .f32 = 32 ∨ (Rect.block (s := S1024x512) S128x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S1024x2048.size a
  hwx0_9 : ∀ i : grid0.Coords, EltTy.bits .f32 = 32 ∨ (Rect.block (s := S1024x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S1024x2048.size a
  hwx0_10 : ∀ i : grid0.Coords, EltTy.bits .f32 = 32 ∨ (Rect.block (s := S1024x2048) S128x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S1024x2048.size a
  hwx0_11 : ∀ i : grid0.Coords, EltTy.bits .f32 = 32 ∨ (Rect.block (s := S1024x2048) S128x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x2048.size a ≤ S1024x2048.size a
  hwx0_12 : ∀ i : grid0.Coords, EltTy.bits .f32 = 32 ∨ (Rect.block (s := S1024x2048) S128x2048.size (cc0_transform_12 i) (hinb0_12 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S128x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S128x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_2) S128x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_3) S128x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3_4) S128x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1024x512 : Shape := ⟨2, ![1024, 512]⟩
abbrev S2048x2048 : Shape := ⟨2, ![2048, 2048]⟩
abbrev S2048x512 : Shape := ⟨2, ![2048, 512]⟩
abbrev S_ : Shape := ⟨0, ![]⟩

abbrev nBuf : Space → Nat
  | .hbm => 89
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x512, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .i1⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .i1⟩
  | .hbm, ⟨34, _⟩ => ⟨S_, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024x2048, .f32⟩
  | .hbm, ⟨49, _⟩ => ⟨S1024x2048, .f32⟩
  | .hbm, ⟨50, _⟩ => ⟨S_, .f32⟩
  | .hbm, ⟨51, _⟩ => ⟨S1024x2048, .f32⟩
  | .hbm, ⟨52, _⟩ => ⟨S1024x2048, .f32⟩
  | .hbm, ⟨53, _⟩ => ⟨S_, .f32⟩
  | .hbm, ⟨54, _⟩ => ⟨S1024x512, .f32⟩
  | .hbm, ⟨55, _⟩ => ⟨S1024x512, .f32⟩
  | .hbm, ⟨56, _⟩ => ⟨S_, .f32⟩
  | .hbm, ⟨57, _⟩ => ⟨S2048x512, .f32⟩
  | .hbm, ⟨58, _⟩ => ⟨S2048x512, .f32⟩
  | .hbm, ⟨59, _⟩ => ⟨S1024x512, .f32⟩
  | .hbm, ⟨60, _⟩ => ⟨S1024x512, .f32⟩
  | .hbm, ⟨61, _⟩ => ⟨S1024x2048, .f32⟩
  | .hbm, ⟨62, _⟩ => ⟨S_, .f32⟩
  | .hbm, ⟨63, _⟩ => ⟨S1024x2048, .f32⟩
  | .hbm, ⟨64, _⟩ => ⟨S1024x2048, .f32⟩
  | .hbm, ⟨65, _⟩ => ⟨S_, .f32⟩
  | .hbm, ⟨66, _⟩ => ⟨S1024x2048, .f32⟩
  | .hbm, ⟨67, _⟩ => ⟨S1024x2048, .f32⟩
  | .hbm, ⟨68, _⟩ => ⟨S_, .f32⟩
  | .hbm, ⟨69, _⟩ => ⟨S1024x2048, .f32⟩
  | .hbm, ⟨70, _⟩ => ⟨S1024x2048, .f32⟩
  | .hbm, ⟨71, _⟩ => ⟨S_, .f32⟩
  | .hbm, ⟨72, _⟩ => ⟨S1024x2048, .f32⟩
  | .hbm, ⟨73, _⟩ => ⟨S1024x2048, .f32⟩
  | .hbm, ⟨74, _⟩ => ⟨S_, .f32⟩
  | .hbm, ⟨75, _⟩ => ⟨S1024x2048, .f32⟩
  | .hbm, ⟨76, _⟩ => ⟨S1024x2048, .i1⟩
  | .hbm, ⟨77, _⟩ => ⟨S_, .f32⟩
  | .hbm, ⟨78, _⟩ => ⟨S_, .f32⟩
  | .hbm, ⟨79, _⟩ => ⟨S1024x2048, .f32⟩
  | .hbm, ⟨80, _⟩ => ⟨S1024x2048, .f32⟩
  | .hbm, ⟨81, _⟩ => ⟨S_, .f32⟩
  | .hbm, ⟨82, _⟩ => ⟨S1024x2048, .f32⟩
  | .hbm, ⟨83, _⟩ => ⟨S1024x2048, .f32⟩
  | .hbm, ⟨84, _⟩ => ⟨S1024x2048, .f32⟩
  | .hbm, ⟨85, _⟩ => ⟨S_, .f32⟩
  | .hbm, ⟨86, _⟩ => ⟨S1024x2048, .f32⟩
  | .hbm, ⟨87, _⟩ => ⟨S1024x2048, .f32⟩
  | .hbm, ⟨88, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v24 : Ref sig .tc := ⟨.hbm, 52, rfl⟩
abbrev main_cst_10 : Ref sig .tc := ⟨.hbm, 53, rfl⟩
abbrev main_v25 : Ref sig .tc := ⟨.hbm, 54, rfl⟩
abbrev main_v26 : Ref sig .tc := ⟨.hbm, 55, rfl⟩
abbrev main_cst_11 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_12 : Ref sig .tc := ⟨.hbm, 62, rfl⟩
abbrev main_v32 : Ref sig .tc := ⟨.hbm, 63, rfl⟩
abbrev main_v33 : Ref sig .tc := ⟨.hbm, 64, rfl⟩
abbrev main_cst_13 : Ref sig .tc := ⟨.hbm, 65, rfl⟩
abbrev main_v34 : Ref sig .tc := ⟨.hbm, 66, rfl⟩
abbrev main_v35 : Ref sig .tc := ⟨.hbm, 67, rfl⟩
abbrev main_cst_14 : Ref sig .tc := ⟨.hbm, 68, rfl⟩
abbrev main_v36 : Ref sig .tc := ⟨.hbm, 69, rfl⟩
abbrev main_v37 : Ref sig .tc := ⟨.hbm, 70, rfl⟩
abbrev main_cst_15 : Ref sig .tc := ⟨.hbm, 71, rfl⟩
abbrev main_v38 : Ref sig .tc := ⟨.hbm, 72, rfl⟩
abbrev main_v39 : Ref sig .tc := ⟨.hbm, 73, rfl⟩
abbrev main_cst_16 : Ref sig .tc := ⟨.hbm, 74, rfl⟩
abbrev main_v40 : Ref sig .tc := ⟨.hbm, 75, rfl⟩
abbrev main_v41 : Ref sig .tc := ⟨.hbm, 76, rfl⟩
abbrev main_cst_17 : Ref sig .tc := ⟨.hbm, 77, rfl⟩
abbrev main_call2_v0 : Ref sig .tc := ⟨.hbm, 78, rfl⟩
abbrev main_call2_v1 : Ref sig .tc := ⟨.hbm, 79, rfl⟩
abbrev main_v42 : Ref sig .tc := ⟨.hbm, 80, rfl⟩
abbrev main_cst_18 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_19 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩

abbrev nD : Nat := 1
abbrev τ : Topo := Topo.v7x

variable {F : FTy → Type} [FloatOps F]

class Facts₀ : Prop where
  bcast_S_S1024x2048 : S_.BroadcastsInDim S1024x2048 (![] : Fin 0 → Fin S1024x2048.rank)
  bcast_S_S1024x512 : S_.BroadcastsInDim S1024x512 (![] : Fin 0 → Fin S1024x512.rank)
  bcast_S_S2048x512 : S_.BroadcastsInDim S2048x512 (![] : Fin 0 → Fin S2048x512.rank)
  dot_S1024x2048_S2048x2048_S1024x2048_1_0_0_1_n_n_wf : DotDims.WF S1024x2048 S2048x2048 S1024x2048 [1] [0] [0] [1] [] []
  dot_S1024x2048_S2048x512_S1024x512_1_0_0_1_n_n_wf : DotDims.WF S1024x2048 S2048x512 S1024x512 [1] [0] [0] [1] [] []

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

class Facts : Prop extends Facts₀ where

variable [Facts]
-- ==== Proof.LifStep.lean ====
/-
  One step of a leaky integrate-and-fire layer with refractory counters, a filtered read-out, the
  surrogate-gradient factor of the spike and two input traces, written on the extended reals.

  For a batch row `i` and a neuron `j` the step computes, from the input spikes `X`, the membrane potentials `V`,
  the previous spikes `Z`, the refractory counters `R`, the filtered output `O` and the weights `Win`, `Wrec`, `Wout`:

    current   I(i,j)  = Σ_k X(i,k)·Win(k,j) + Σ_k Z(i,k)·Wrec(k,j)
    potential U(i,j)  = (α·V(i,j) + I(i,j)) − Z(i,j)·θ
    scaled    s(i,j)  = (U(i,j) − θ) / θ
    spike     z(i,j)  = 0 if R(i,j) > 1/10, else [s(i,j) > 0]
    counter   r(i,j)  = min(5, max(0, (R(i,j) + 5·z(i,j)) − 1))
    surrogate g(i,j)  = 0 if R(i,j) > 1/10, else max(3/10·(1 − |s(i,j)|), 0) / θ
    read-out  o(i,c)  = α·O(i,c) + Σ_k z(i,k)·Wout(k,c)
    trace     e(i,j)  = E(i,j)·α + X(i,j)

  with α, θ, 1/10, 3/10, 5, 1 the values their single-precision words denote. Every entry of row `i` of a result
  depends on row `i` of the batch arrays only (and on the whole weight matrices): a block of consecutive rows of a
  result is the same step applied to that block of rows (`rowsFrom`).
-/
import Idealize.ShloMosaic.Lib.ValueIdx
import Idealize.ShloMosaic.PureOps.Ideal

noncomputable section

namespace Cert.LifStep

open Idealize.ShloMosaic Idealize.ShloMosaic.ValueIdx

/-- An `a × b` array of extended reals. -/
abbrev Arr (a b : ℕ) : Type := (⟨2, ![a, b]⟩ : Shape).Idx → EReal

/-- The extended real a single-precision word denotes. -/
abbrev lit (w : BitVec 32) : EReal := Ideal.ofBits .f32 w

/-! ## One neuron -/

/-- Leak, input current, and the reset by the previous spike. -/
def potential (cur v z : EReal) : EReal := (lit 0x3F7383C6#32 * v + cur) - z * lit 0x3ECCCCCD#32

/-- The potential's distance from the threshold, in units of the threshold. -/
def scaled (u : EReal) : EReal := Ideal.div (u - lit 0x3ECCCCCD#32) (lit 0x3ECCCCCD#32)

/-- The neuron is refractory: its counter exceeds a tenth. -/
def resting (r : EReal) : BitVec 1 := Ideal.cmp .ogt r (lit 0x3DCCCCCD#32)

/-- The scaled potential is above zero. -/
def fires (s : EReal) : BitVec 1 := Ideal.cmp .ogt s (lit 0x00000000#32)

/-- The new spike: none while refractory, else the indicator of a positive scaled potential. -/
def spike (s r : EReal) : EReal :=
  Scalar.select (resting r) (lit 0x00000000#32) ((((fires s).toNat : ℕ) : ℝ) : EReal)

/-- The new refractory counter, clipped to `[0, 5]`. -/
def counter (r z : EReal) : EReal :=
  min (lit 0x40A00000#32) (max (lit 0x00000000#32) ((r + lit 0x40A00000#32 * z) - lit 0x3F800000#32))

/-- The surrogate gradient of the spike in the potential: a triangle around the threshold, zero while refractory. -/
def surrogate (s r : EReal) : EReal :=
  Scalar.select (resting r) (lit 0x00000000#32)
    (Ideal.div (max (lit 0x3E99999A#32 * (lit 0x3F800000#32 - max s (-s))) (lit 0x00000000#32)) (lit 0x3ECCCCCD#32))

/-- The filtered read-out: the decayed old value plus the new drive. -/
def filtered (o d : EReal) : EReal := lit 0x3F7383C6#32 * o + d

/-- An input trace: the decayed old trace plus the new input. -/
def traced (e x : EReal) : EReal := e * lit 0x3F7383C6#32 + x

/-! ## The layer, entry by entry, for any number `n` of batch rows -/

variable {n : ℕ}

/-- The synaptic current of neuron `j` in row `i`. -/
def current (X Z : Arr n 2048) (Win Wrec : Arr 2048 2048) (i : Fin n) (j : Fin 2048) : EReal :=
  (∑ k : Fin 2048, X (ix2 i k) * Win (ix2 k j)) + ∑ k : Fin 2048, Z (ix2 i k) * Wrec (ix2 k j)

def potentialAt (X V Z : Arr n 2048) (Win Wrec : Arr 2048 2048) (i : Fin n) (j : Fin 2048) : EReal :=
  potential (current X Z Win Wrec i j) (V (ix2 i j)) (Z (ix2 i j))

def scaledAt (X V Z : Arr n 2048) (Win Wrec : Arr 2048 2048) (i : Fin n) (j : Fin 2048) : EReal :=
  scaled (potentialAt X V Z Win Wrec i j)

def spikeAt (X V Z R : Arr n 2048) (Win Wrec : Arr 2048 2048) (i : Fin n) (j : Fin 2048) : EReal :=
  spike (scaledAt X V Z Win Wrec i j) (R (ix2 i j))

def counterAt (X V Z R : Arr n 2048) (Win Wrec : Arr 2048 2048) (i : Fin n) (j : Fin 2048) : EReal :=
  counter (R (ix2 i j)) (spikeAt X V Z R Win Wrec i j)

def surrogateAt (X V Z R : Arr n 2048) (Win Wrec : Arr 2048 2048) (i : Fin n) (j : Fin 2048) : EReal :=
  surrogate (scaledAt X V Z Win Wrec i j) (R (ix2 i j))

def outputAt (X V Z R : Arr n 2048) (O : Arr n 512) (Win Wrec : Arr 2048 2048) (Wout : Arr 2048 512)
    (i : Fin n) (c : Fin 512) : EReal :=
  filtered (O (ix2 i c)) (∑ k : Fin 2048, spikeAt X V Z R Win Wrec i k * Wout (ix2 k c))

def tracedAt (E X : Arr n 2048) (i : Fin n) (j : Fin 2048) : EReal := traced (E (ix2 i j)) (X (ix2 i j))

/-- A function of the two coordinates as an array. -/
def arr {a b : ℕ} (f : Fin a → Fin b → EReal) : Arr a b := fun y => f (y 0) (y 1)

theorem arr_ix2 {a b : ℕ} (f : Fin a → Fin b → EReal) (i : Fin a) (j : Fin b) : arr f (ix2 i j) = f i j := rfl

/-! ## Rows -/

/-- The 128 rows of an array that start at row `o`. -/
def rowsFrom (o : ℕ) (h : o + 128 ≤ 1024) {b : ℕ} (A : Arr 1024 b) : Arr 128 b :=
  fun y => A (ix2 ⟨o + (y 0).val, by have := idx2_lt0 y; omega⟩ (y 1))

theorem rowsFrom_ix2 (o : ℕ) (h : o + 128 ≤ 1024) {b : ℕ} (A : Arr 1024 b) (p : Fin 128) (q : Fin b) :
    rowsFrom o h A (ix2 p q) = A (ix2 ⟨o + p.val, by omega⟩ q) := rfl

section Rows

variable (o : ℕ) (h : o + 128 ≤ 1024) (X V Z R : Arr 1024 2048) (O : Arr 1024 512) (Win Wrec : Arr 2048 2048)
  (Wout : Arr 2048 512) (p : Fin 128)

/-- Row `p` of the step applied to the rows from `o` is row `o + p` of the step applied to all rows. -/
theorem potentialAt_rows (q : Fin 2048) :
    potentialAt (rowsFrom o h X) (rowsFrom o h V) (rowsFrom o h Z) Win Wrec p q
      = potentialAt X V Z Win Wrec ⟨o + p.val, by omega⟩ q := rfl

theorem spikeAt_rows (q : Fin 2048) :
    spikeAt (rowsFrom o h X) (rowsFrom o h V) (rowsFrom o h Z) (rowsFrom o h R) Win Wrec p q
      = spikeAt X V Z R Win Wrec ⟨o + p.val, by omega⟩ q := rfl

theorem counterAt_rows (q : Fin 2048) :
    counterAt (rowsFrom o h X) (rowsFrom o h V) (rowsFrom o h Z) (rowsFrom o h R) Win Wrec p q
      = counterAt X V Z R Win Wrec ⟨o + p.val, by omega⟩ q := rfl

theorem surrogateAt_rows (q : Fin 2048) :
    surrogateAt (rowsFrom o h X) (rowsFrom o h V) (rowsFrom o h Z) (rowsFrom o h R) Win Wrec p q
      = surrogateAt X V Z R Win Wrec ⟨o + p.val, by omega⟩ q := rfl

theorem outputAt_rows (c : Fin 512) :
    outputAt (rowsFrom o h X) (rowsFrom o h V) (rowsFrom o h Z) (rowsFrom o h R) (rowsFrom o h O) Win Wrec Wout p c
      = outputAt X V Z R O Win Wrec Wout ⟨o + p.val, by omega⟩ c := rfl

end Rows

end Cert.LifStep

end
-- ==== Proof.ReferenceStep.lean ====
/-
  The reference program's seven results, stage by stage, are the layer's step (`Cert.LifStep`) of its arguments,
  entry by entry on the extended reals.

  The reference computes the current with two whole matrix products, the read-out with a third one whose right operand
  is the read-out weights times the constant one, and everything else entrywise, in the order the step's definitions
  are written. Its `where` and `clip` calls are a select against a splat zero and a maximum followed by a minimum.
-/
import proofs.«176733_j12575664243445_2_alg».proof.Proof.Gen.ReferenceIdeal.Read
import proofs.«176733_j12575664243445_2_alg».proof.Proof.LifStep
import Idealize.ShloMosaic.Lib.IdealHost

noncomputable section

namespace Cert.ReferenceIdeal.Step

open Cert.ReferenceIdeal Cert.ReferenceIdeal.Read Cert.LifStep Idealize.ShloMosaic Idealize.ShloMosaic.ValueIdx

/-! ## The products' operand coordinates -/

theorem lrow0 (p : Fin 1024) (q k : Fin 2048) : lidx_main_v0 (ix2 p q) k = ix2 p k :=
  funext fun a => Fin.ext (by match a with | ⟨0, _⟩ => rfl | ⟨1, _⟩ => rfl)
theorem rcol0 (p : Fin 1024) (q k : Fin 2048) : ridx_main_v0 (ix2 p q) k = ix2 k q :=
  funext fun a => Fin.ext (by match a with | ⟨0, _⟩ => rfl | ⟨1, _⟩ => rfl)
theorem lrow1 (p : Fin 1024) (q k : Fin 2048) : lidx_main_v1 (ix2 p q) k = ix2 p k :=
  funext fun a => Fin.ext (by match a with | ⟨0, _⟩ => rfl | ⟨1, _⟩ => rfl)
theorem rcol1 (p : Fin 1024) (q k : Fin 2048) : ridx_main_v1 (ix2 p q) k = ix2 k q :=
  funext fun a => Fin.ext (by match a with | ⟨0, _⟩ => rfl | ⟨1, _⟩ => rfl)
theorem lrow29 (p : Fin 1024) (c : Fin 512) (k : Fin 2048) : lidx_main_v29 (ix2 p c) k = ix2 p k :=
  funext fun a => Fin.ext (by match a with | ⟨0, _⟩ => rfl | ⟨1, _⟩ => rfl)
theorem rcol29 (p : Fin 1024) (c : Fin 512) (k : Fin 2048) : ridx_main_v29 (ix2 p c) k = ix2 k c :=
  funext fun a => Fin.ext (by match a with | ⟨0, _⟩ => rfl | ⟨1, _⟩ => rfl)

section Stages

variable (x0 x1 x2 x3 x5 x6 : Arr 1024 2048) (x4 : Arr 1024 512) (x7 x8 : Arr 2048 2048) (x9 : Arr 2048 512)
  (p : Fin 1024) (q : Fin 2048)

/-- The new potential. -/
theorem potential_at : val_main_v8 (F := Ideal) x0 x1 x2 x7 x8 (ix2 p q) = potentialAt x0 x1 x2 x7 x8 p q := by
  rw [val_main_v8_apply, val_main_v5_apply, val_main_v4_apply, val_main_v3_apply, val_main_cst_apply,
    val_main_v2_apply, val_main_v0_apply, val_main_v1_apply, val_main_v7_apply, val_main_v6_apply, val_main_cst_0_apply]
  simp only [lrow0, rcol0, lrow1, rcol1]
  rfl

/-- Its scaled distance from the threshold. -/
theorem scaled_at : val_main_v12 (F := Ideal) x0 x1 x2 x7 x8 (ix2 p q) = scaledAt x0 x1 x2 x7 x8 p q := by
  rw [val_main_v12_apply, val_main_v10_apply, potential_at, val_main_v9_apply, val_main_cst_1_apply,
    val_main_v11_apply, val_main_cst_2_apply]
  rfl

/-- The new spike. -/
theorem spike_at : val_main_v18 (F := Ideal) x0 x1 x2 x3 x7 x8 (ix2 p q) = spikeAt x0 x1 x2 x3 x7 x8 p q := by
  rw [val_main_v18_apply, val_main_v17_apply, val_main_v16_apply, val_main_cst_4_apply, val_main_call0_v1_apply,
    val_main_call0_v0_apply, val_main_cst_5_apply, val_main_v15_apply, val_main_v14_apply, scaled_at,
    val_main_v13_apply, val_main_cst_3_apply]
  rfl

/-- The clipped counter. -/
theorem counter_at : val_main_v24 (F := Ideal) x0 x1 x2 x3 x7 x8 (ix2 p q) = counterAt x0 x1 x2 x3 x7 x8 p q := by
  rw [val_main_v24_apply, val_main_call1_v4_apply, val_main_call1_v3_apply, val_main_cst_9_apply,
    val_main_call1_v2_apply, val_main_call1_v1_apply, val_main_call1_v0_apply, val_main_cst_8_apply,
    val_main_v23_apply, val_main_v21_apply, val_main_v20_apply, val_main_v19_apply, val_main_cst_6_apply, spike_at,
    val_main_v22_apply, val_main_cst_7_apply]
  rfl

/-- The surrogate factor. -/
theorem surrogate_at : val_main_v42 (F := Ideal) x0 x1 x2 x3 x7 x8 (ix2 p q) = surrogateAt x0 x1 x2 x3 x7 x8 p q := by
  rw [val_main_v42_apply, val_main_v41_apply, val_main_v40_apply, val_main_cst_16_apply, val_main_call2_v1_apply,
    val_main_call2_v0_apply, val_main_cst_17_apply, val_main_v39_apply, val_main_v37_apply, val_main_v35_apply,
    val_main_v34_apply, val_main_cst_13_apply, val_main_v33_apply, val_main_v32_apply, val_main_cst_12_apply,
    val_main_v31_apply, scaled_at, val_main_v36_apply, val_main_cst_14_apply, val_main_v38_apply, val_main_cst_15_apply]
  rfl

/-- The filtered read-out. -/
theorem output_at (c : Fin 512) :
    val_main_v30 (F := Ideal) x0 x1 x2 x3 x4 x7 x8 x9 (ix2 p c) = outputAt x0 x1 x2 x3 x4 x7 x8 x9 p c := by
  rw [val_main_v30_apply, val_main_v26_apply, val_main_v25_apply, val_main_cst_10_apply, val_main_v29_apply]
  simp only [lrow29, rcol29, spike_at, val_main_v28_apply, val_main_v27_apply, val_main_cst_11_apply]
  have e : ∀ k : Fin 2048, spikeAt x0 x1 x2 x3 x7 x8 p k * FloatOps.mulf (x9 (ix2 k c)) (FloatOps.ofBits (F := Ideal) .f32 0x3F800000#32)
      = spikeAt x0 x1 x2 x3 x7 x8 p k * x9 (ix2 k c) := fun k => by
    show _ * (x9 (ix2 k c) * lit 0x3F800000#32) = _
    rw [show lit 0x3F800000#32 = 1 from Ideal.ofBits_one_f32, mul_one]
  simp only [e]
  rfl

/-- The two input traces. -/
theorem traced_in_at : val_main_v45 (F := Ideal) x0 x5 (ix2 p q) = tracedAt x5 x0 p q := by
  rw [val_main_v45_apply, val_main_v44_apply, val_main_v43_apply, val_main_cst_18_apply]
  rfl

theorem traced_rec_at : val_main_v48 (F := Ideal) x2 x6 (ix2 p q) = tracedAt x6 x2 p q := by
  rw [val_main_v48_apply, val_main_v47_apply, val_main_v46_apply, val_main_cst_19_apply]
  rfl

end Stages

/-! ## The seven results as arrays -/

section Results

variable (x0 x1 x2 x3 x5 x6 : Arr 1024 2048) (x4 : Arr 1024 512) (x7 x8 : Arr 2048 2048) (x9 : Arr 2048 512)

theorem output_eq : val_main_v30 (F := Ideal) x0 x1 x2 x3 x4 x7 x8 x9 = arr (outputAt x0 x1 x2 x3 x4 x7 x8 x9) :=
  funext fun i => by rw [eq_ix2 i]; exact output_at x0 x1 x2 x3 x4 x7 x8 x9 (i 0) (i 1)
theorem spike_eq : val_main_v18 (F := Ideal) x0 x1 x2 x3 x7 x8 = arr (spikeAt x0 x1 x2 x3 x7 x8) :=
  funext fun i => by rw [eq_ix2 i]; exact spike_at x0 x1 x2 x3 x7 x8 (i 0) (i 1)
theorem potential_eq : val_main_v8 (F := Ideal) x0 x1 x2 x7 x8 = arr (potentialAt x0 x1 x2 x7 x8) :=
  funext fun i => by rw [eq_ix2 i]; exact potential_at x0 x1 x2 x7 x8 (i 0) (i 1)
theorem counter_eq : val_main_v24 (F := Ideal) x0 x1 x2 x3 x7 x8 = arr (counterAt x0 x1 x2 x3 x7 x8) :=
  funext fun i => by rw [eq_ix2 i]; exact counter_at x0 x1 x2 x3 x7 x8 (i 0) (i 1)
theorem traced_in_eq : val_main_v45 (F := Ideal) x0 x5 = arr (tracedAt x5 x0) :=
  funext fun i => by rw [eq_ix2 i]; exact traced_in_at x0 x5 (i 0) (i 1)
theorem traced_rec_eq : val_main_v48 (F := Ideal) x2 x6 = arr (tracedAt x6 x2) :=
  funext fun i => by rw [eq_ix2 i]; exact traced_rec_at x2 x6 (i 0) (i 1)
theorem surrogate_eq : val_main_v42 (F := Ideal) x0 x1 x2 x3 x7 x8 = arr (surrogateAt x0 x1 x2 x3 x7 x8) :=
  funext fun i => by rw [eq_ix2 i]; exact surrogate_at x0 x1 x2 x3 x7 x8 (i 0) (i 1)

end Results

end Cert.ReferenceIdeal.Step

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.KernelBody.lean ====
/-
  What the kernel's body computes from one block of 128 batch rows, entry by entry on the extended reals: each stored
  value is the layer's step (`Cert.LifStep`) applied to the block's rows and the whole weight matrices.

  The body's values are a chain: the new potential; its scaled distance from the threshold; the refractory mask; the
  new spike; the counter before clipping; the clipped counter; the filtered read-out; the surrogate factor. Everything
  but the three matrix products is entrywise, and a product of a block with a weight matrix, accumulated from zero, is
  at `(p, q)` the sum over `k` of `block (p, k) · weights (k, q)`. A change of float format is the identity on the
  extended reals, so the half-width copies the products read are the values themselves. The spike's indicator is
  produced as a one-bit word widened to 32 bits and read as a signed integer: that is the bit itself.
-/
import proofs.«176733_j12575664243445_2_alg».proof.Proof.Gen.KernelIdeal.Skeleton
import proofs.«176733_j12575664243445_2_alg».proof.Proof.LifStep
import proofs.«176733_j12575664243445_2_alg».proof.Proof.LibPlainMatmul
import Idealize.ShloMosaic.Lib.Pipeline.Value
import Idealize.ShloMosaic.Lib.IdealHost

noncomputable section

namespace Cert.KernelIdeal.Body

open Cert.KernelIdeal Cert.KernelIdeal.Gen Cert.LifStep Idealize.ShloMosaic Idealize.ShloMosaic.ValueIdx

/-- A one-bit word widened to 32 bits and read as a signed integer is the bit. -/
theorem bit_widened (b : BitVec 1) :
    FloatOps.sitofp (F := Ideal) .f32 (b.setWidth 32) = ((((b.toNat : ℕ) : ℝ)) : EReal) := by
  have e : (b.setWidth 32).toInt = ((b.toNat : ℕ) : ℤ) := by
    rcases BitVec.eq_zero_or_eq_one b with h | h <;> subst h <;> decide
  show ((((b.setWidth 32).toInt : ℤ) : ℝ) : EReal) = _
  rw [e, Int.cast_natCast]

/-- A block of rows times a square weight matrix, from the zero accumulator, at `(p, q)`. -/
theorem product_at (x : FVec Ideal S128x2048 .bf16) (w : FVec Ideal S2048x2048 .bf16) (p : Fin 128) (q : Fin 2048) :
    FloatOps.matmul dot_S128x2048_S2048x2048_S128x2048_1_0_0_1_n_n none x
        (shapeCast S2048x2048 w shapeCasts_S2048x2048_S2048x2048) (constant S128x2048 .f32 0x00000000#32) (ix2 p q)
      = ∑ k : Fin 2048, x (ix2 p k) * w (ix2 k q) := by
  rw [shapeCast_self]
  exact Cert.PlainMatmul.plain_apply (M := 128) (K := 2048) (N := 2048) x w p q

/-- A block of rows times the read-out weights, from the zero accumulator, at `(p, c)`. -/
theorem readout_at (x : FVec Ideal S128x2048 .bf16) (w : FVec Ideal S2048x512 .bf16) (p : Fin 128) (c : Fin 512) :
    FloatOps.matmul dot_S128x2048_S2048x512_S128x512_1_0_0_1_n_n none x
        (shapeCast S2048x512 w shapeCasts_S2048x512_S2048x512) (constant S128x512 .f32 0x00000000#32) (ix2 p c)
      = ∑ k : Fin 2048, x (ix2 p k) * w (ix2 k c) := by
  rw [shapeCast_self]
  exact Cert.PlainMatmul.plain_apply (M := 128) (K := 2048) (N := 512) x w p c

section Payloads

variable (x0 x1 x2 x3 : Vec Ideal S128x2048 .f32) (x4 : Vec Ideal S128x512 .f32)
  (x7 x10 : Vec Ideal S2048x2048 .bf16) (x44 : Vec Ideal S2048x512 .bf16) (p : Fin 128) (q : Fin 2048)

/-- The new potential. -/
theorem potential_at : k0_pay1 (F := Ideal) x0 x1 x2 x7 x10 (ix2 p q) = potentialAt x0 x1 x2 x7 x10 p q := by
  have e1 := product_at (truncf .bf16 x0 bitsLt_bf16_f32) x7 p q
  have e2 := product_at (truncf .bf16 x2 bitsLt_bf16_f32) x10 p q
  exact congrArg (fun d : EReal => (lit 0x3F7383C6#32 * x1 (ix2 p q) + d) - x2 (ix2 p q) * lit 0x3ECCCCCD#32)
    (congrArg₂ (fun a b : EReal => a + b) e1 e2)

/-- Its scaled distance from the threshold. -/
theorem scaled_at : k0_pay2 (F := Ideal) x0 x1 x2 x7 x10 (ix2 p q) = scaledAt x0 x1 x2 x7 x10 p q :=
  congrArg scaled (potential_at x0 x1 x2 x7 x10 p q)

/-- The refractory mask. -/
theorem resting_at : k0_pay3 (F := Ideal) x3 (ix2 p q) = resting (x3 (ix2 p q)) := rfl

/-- The new spike. -/
theorem spike_at : k0_pay4 (F := Ideal) x0 x1 x2 x3 x7 x10 (ix2 p q) = spikeAt x0 x1 x2 x3 x7 x10 p q := by
  have e : k0_pay4 (F := Ideal) x0 x1 x2 x3 x7 x10 (ix2 p q)
      = Scalar.select (resting (x3 (ix2 p q))) (lit 0x00000000#32)
          (FloatOps.sitofp (F := Ideal) .f32 ((fires (k0_pay2 (F := Ideal) x0 x1 x2 x7 x10 (ix2 p q))).setWidth 32)) := rfl
  rw [e, bit_widened, scaled_at]
  rfl

/-- The clipped counter. -/
theorem counter_at :
    k0_pay6 (F := Ideal) (k0_pay5 (F := Ideal) x0 x1 x2 x3 x7 x10) (ix2 p q) = counterAt x0 x1 x2 x3 x7 x10 p q :=
  congrArg (counter (x3 (ix2 p q))) (spike_at x0 x1 x2 x3 x7 x10 p q)

/-- The surrogate factor. -/
theorem surrogate_at :
    k0_pay8 (F := Ideal) (k0_pay2 (F := Ideal) x0 x1 x2 x7 x10) (k0_pay3 (F := Ideal) x3) (ix2 p q)
      = surrogateAt x0 x1 x2 x3 x7 x10 p q :=
  congrArg (fun s => surrogate s (x3 (ix2 p q))) (scaled_at x0 x1 x2 x7 x10 p q)

/-- The filtered read-out. -/
theorem output_at (c : Fin 512) :
    k0_pay7 (F := Ideal) x4 (k0_pay4 (F := Ideal) x0 x1 x2 x3 x7 x10) x44 (ix2 p c)
      = outputAt x0 x1 x2 x3 x4 x7 x10 x44 p c := by
  have e1 := readout_at (truncf .bf16 (k0_pay4 (F := Ideal) x0 x1 x2 x3 x7 x10) bitsLt_bf16_f32) x44 p c
  have e2 : (∑ k : Fin 2048, (truncf .bf16 (k0_pay4 (F := Ideal) x0 x1 x2 x3 x7 x10) bitsLt_bf16_f32 : FVec Ideal S128x2048 .bf16) (ix2 p k) * x44 (ix2 k c))
      = ∑ k : Fin 2048, spikeAt x0 x1 x2 x3 x7 x10 p k * x44 (ix2 k c) :=
    Finset.sum_congr rfl fun k _ => congrArg (fun a : EReal => a * x44 (ix2 k c)) (spike_at x0 x1 x2 x3 x7 x10 p k)
  have e3 : k0_pay7 (F := Ideal) x4 (k0_pay4 (F := Ideal) x0 x1 x2 x3 x7 x10) x44 (ix2 p c)
      = filtered (x4 (ix2 p c)) (lit 0x3F800000#32 * ∑ k : Fin 2048, spikeAt x0 x1 x2 x3 x7 x10 p k * x44 (ix2 k c)) :=
    congrArg (fun d : EReal => filtered (x4 (ix2 p c)) (lit 0x3F800000#32 * d)) (e1.trans e2)
  rw [e3, show lit 0x3F800000#32 = 1 from Ideal.ofBits_one_f32, one_mul]
  rfl

end Payloads

end Cert.KernelIdeal.Body

end
-- ==== Proof.KernelArrays.lean ====
/-
  The kernel's five result arrays after the run are the layer's step (`Cert.LifStep`) of the arrays the region finds.

  The grid has eight points; at point `t` every row-tiled window holds rows `128 t … 128 t + 127` of its array and the
  three weight windows hold their whole arrays. The body's value for an output window at `(p, q)` is the step's value
  at `(p, q)` of those rows, which is the step's value at row `128 t + p` of the whole arrays; the point writes it back to
  row `128 t + p`. The eight blocks cover the 1024 rows (row `r` lies in block `r / 128`), so each result array ends
  holding the step's array. The three weight arrays the region finds are the arguments themselves: the conversion to
  half width that precedes the region is the identity on the extended reals. The two traces are computed after the
  region from arguments the region leaves unchanged.
-/
import proofs.«176733_j12575664243445_2_alg».proof.Proof.Gen.KernelIdeal.Frame
import proofs.«176733_j12575664243445_2_alg».proof.Proof.KernelBody
import Idealize.ShloMosaic.Lib.Pipeline.Value
import Idealize.ShloMosaic.Lib.StableHlo.Run
import Idealize.ShloMosaic.Lib.Tactic

noncomputable section

namespace Cert.KernelIdeal.Arrays

open Cert.KernelIdeal Cert.KernelIdeal.Gen Cert.LifStep Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

theorem point_lt (t : Fin cfg0.N) : t.val < 8 := lt_of_lt_of_eq t.isLt N_0

theorem rows_le (t : Fin cfg0.N) : 128 * t.val + 128 ≤ 1024 := by have := point_lt t; omega

theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## The input windows' blocks -/

/-- Input window 0's block at point `t` is rows `128 t … 128 t + 127` of its array. -/
theorem block0 (c : Dev nD) (t : Fin cfg0.N) :
    (iblk m c 0 t : Vec Ideal S128x2048 .f32) = rowsFrom (128 * t.val) (rows_le t) (V m c main_arg0 : S1024x2048.Idx → EReal) := by
  funext y
  unfold iblk
  rw [View.read_apply]
  show V m c main_arg0 (((cfg0.win 0).blk t).view.emb y) = V m c main_arg0 (ix2 ⟨128 * t.val + (y 0).val, _⟩ (y 1))
  refine congrArg (V m c main_arg0) ?_
  funext a; apply Fin.ext
  obtain ⟨⟨e0, e1⟩, -⟩ := index_facts t
  match a with
  | ⟨0, _⟩ => show win0_0.index t (0 : Fin 2) * 128 + 1 * (y 0).val = 128 * t.val + (y 0).val; omega
  | ⟨1, _⟩ => show win0_0.index t (1 : Fin 2) * 2048 + 1 * (y 1).val = (y 1).val; omega

/-- Input window 1's block at point `t` is rows `128 t … 128 t + 127` of its array. -/
theorem block1 (c : Dev nD) (t : Fin cfg0.N) :
    (iblk m c 1 t : Vec Ideal S128x2048 .f32) = rowsFrom (128 * t.val) (rows_le t) (V m c main_arg1 : S1024x2048.Idx → EReal) := by
  funext y
  unfold iblk
  rw [View.read_apply]
  show V m c main_arg1 (((cfg0.win 1).blk t).view.emb y) = V m c main_arg1 (ix2 ⟨128 * t.val + (y 0).val, _⟩ (y 1))
  refine congrArg (V m c main_arg1) ?_
  funext a; apply Fin.ext
  obtain ⟨-, ⟨e0, e1⟩, -⟩ := index_facts t
  match a with
  | ⟨0, _⟩ => show win0_1.index t (0 : Fin 2) * 128 + 1 * (y 0).val = 128 * t.val + (y 0).val; omega
  | ⟨1, _⟩ => show win0_1.index t (1 : Fin 2) * 2048 + 1 * (y 1).val = (y 1).val; omega

/-- Input window 2's block at point `t` is rows `128 t … 128 t + 127` of its array. -/
theorem block2 (c : Dev nD) (t : Fin cfg0.N) :
    (iblk m c 2 t : Vec Ideal S128x2048 .f32) = rowsFrom (128 * t.val) (rows_le t) (V m c main_arg2 : S1024x2048.Idx → EReal) := by
  funext y
  unfold iblk
  rw [View.read_apply]
  show V m c main_arg2 (((cfg0.win 2).blk t).view.emb y) = V m c main_arg2 (ix2 ⟨128 * t.val + (y 0).val, _⟩ (y 1))
  refine congrArg (V m c main_arg2) ?_
  funext a; apply Fin.ext
  obtain ⟨-, -, ⟨e0, e1⟩, -⟩ := index_facts t
  match a with
  | ⟨0, _⟩ => show win0_2.index t (0 : Fin 2) * 128 + 1 * (y 0).val = 128 * t.val + (y 0).val; omega
  | ⟨1, _⟩ => show win0_2.index t (1 : Fin 2) * 2048 + 1 * (y 1).val = (y 1).val; omega

/-- Input window 3's block at point `t` is rows `128 t … 128 t + 127` of its array. -/
theorem block3 (c : Dev nD) (t : Fin cfg0.N) :
    (iblk m c 3 t : Vec Ideal S128x2048 .f32) = rowsFrom (128 * t.val) (rows_le t) (V m c main_arg3 : S1024x2048.Idx → EReal) := by
  funext y
  unfold iblk
  rw [View.read_apply]
  show V m c main_arg3 (((cfg0.win 3).blk t).view.emb y) = V m c main_arg3 (ix2 ⟨128 * t.val + (y 0).val, _⟩ (y 1))
  refine congrArg (V m c main_arg3) ?_
  funext a; apply Fin.ext
  obtain ⟨-, -, -, ⟨e0, e1⟩, -⟩ := index_facts t
  match a with
  | ⟨0, _⟩ => show win0_3.index t (0 : Fin 2) * 128 + 1 * (y 0).val = 128 * t.val + (y 0).val; omega
  | ⟨1, _⟩ => show win0_3.index t (1 : Fin 2) * 2048 + 1 * (y 1).val = (y 1).val; omega

/-- Input window 4's block at point `t` is rows `128 t … 128 t + 127` of its array. -/
theorem block4 (c : Dev nD) (t : Fin cfg0.N) :
    (iblk m c 4 t : Vec Ideal S128x512 .f32) = rowsFrom (128 * t.val) (rows_le t) (V m c main_arg4 : S1024x512.Idx → EReal) := by
  funext y
  unfold iblk
  rw [View.read_apply]
  show V m c main_arg4 (((cfg0.win 4).blk t).view.emb y) = V m c main_arg4 (ix2 ⟨128 * t.val + (y 0).val, _⟩ (y 1))
  refine congrArg (V m c main_arg4) ?_
  funext a; apply Fin.ext
  obtain ⟨-, -, -, -, ⟨e0, e1⟩, -⟩ := index_facts t
  match a with
  | ⟨0, _⟩ => show win0_4.index t (0 : Fin 2) * 128 + 1 * (y 0).val = 128 * t.val + (y 0).val; omega
  | ⟨1, _⟩ => show win0_4.index t (1 : Fin 2) * 512 + 1 * (y 1).val = (y 1).val; omega

/-- Input window 5's one block is its whole array, at every point. -/
theorem block5 (c : Dev nD) (t : Fin cfg0.N) :
    (iblk m c 5 t : Vec Ideal S2048x2048 .bf16) = (V m c main_v0 : S2048x2048.Idx → EReal) := by
  funext y
  unfold iblk
  rw [View.read_apply]
  show V m c main_v0 (((cfg0.win 5).blk t).view.emb y) = V m c main_v0 y
  refine congrArg (V m c main_v0) ?_
  funext a; apply Fin.ext
  obtain ⟨-, -, -, -, -, ⟨e0, e1⟩, -⟩ := index_facts t
  match a with
  | ⟨0, _⟩ => show win0_5.index t (0 : Fin 2) * 2048 + 1 * (y 0).val = (y 0).val; omega
  | ⟨1, _⟩ => show win0_5.index t (1 : Fin 2) * 2048 + 1 * (y 1).val = (y 1).val; omega

/-- Input window 6's one block is its whole array, at every point. -/
theorem block6 (c : Dev nD) (t : Fin cfg0.N) :
    (iblk m c 6 t : Vec Ideal S2048x2048 .bf16) = (V m c main_v1 : S2048x2048.Idx → EReal) := by
  funext y
  unfold iblk
  rw [View.read_apply]
  show V m c main_v1 (((cfg0.win 6).blk t).view.emb y) = V m c main_v1 y
  refine congrArg (V m c main_v1) ?_
  funext a; apply Fin.ext
  obtain ⟨-, -, -, -, -, -, ⟨e0, e1⟩, -⟩ := index_facts t
  match a with
  | ⟨0, _⟩ => show win0_6.index t (0 : Fin 2) * 2048 + 1 * (y 0).val = (y 0).val; omega
  | ⟨1, _⟩ => show win0_6.index t (1 : Fin 2) * 2048 + 1 * (y 1).val = (y 1).val; omega

/-- Input window 7's one block is its whole array, at every point. -/
theorem block7 (c : Dev nD) (t : Fin cfg0.N) :
    (iblk m c 7 t : Vec Ideal S2048x512 .bf16) = (V m c main_v2 : S2048x512.Idx → EReal) := by
  funext y
  unfold iblk
  rw [View.read_apply]
  show V m c main_v2 (((cfg0.win 7).blk t).view.emb y) = V m c main_v2 y
  refine congrArg (V m c main_v2) ?_
  funext a; apply Fin.ext
  obtain ⟨-, -, -, -, -, -, -, ⟨e0, e1⟩, -⟩ := index_facts t
  match a with
  | ⟨0, _⟩ => show win0_7.index t (0 : Fin 2) * 2048 + 1 * (y 0).val = (y 0).val; omega
  | ⟨1, _⟩ => show win0_7.index t (1 : Fin 2) * 512 + 1 * (y 1).val = (y 1).val; omega

/-! ## Output window 8: the filtered read-out -/

/-- Where an entry of point `t`'s block sits in the array: row `128 t + p`. -/
theorem emb8 (t : Fin cfg0.N) (p : Fin 128) (q : Fin 512) :
    ((cfg0.win 8).blk t).view.emb (ix2 p q) = ix2 ⟨128 * t.val + p.val, by have := rows_le t; omega⟩ q := by
  funext a; apply Fin.ext
  obtain ⟨-, -, -, -, -, -, -, -, ⟨e0, e1⟩, -⟩ := index_facts t
  match a with
  | ⟨0, _⟩ => show win0_8.index t (0 : Fin 2) * 128 + 1 * p.val = 128 * t.val + p.val; omega
  | ⟨1, _⟩ => show win0_8.index t (1 : Fin 2) * 512 + 1 * q.val = q.val; omega

/-- What point `t` writes back is block `t` of the filtered read-out of the arrays as the region finds them. -/
theorem flushed8_eq (c : Dev nD) (t : Fin cfg0.N) :
    (dats m 0 c).flushed 8 t = ((cfg0.win 8).blk t).view.read (Elt Ideal)
      (arr (outputAt (V m c main_arg0) (V m c main_arg1) (V m c main_arg2) (V m c main_arg3) (V m c main_arg4) (V m c main_v0) (V m c main_v1) (V m c main_v2)) : S1024x512.Idx → EReal) := by
  show (cfg0.win 8).cut (grid0.coords t) ((dats m 0 c).after 8 t) = _
  rw [after0_8]
  unfold out0_8
  rw [View.canon_unit_zero hz]
  simp only [View.ld_unit_zero (S := S128x2048) hz, View.ld_unit_zero (S := S128x512) hz,
    View.ld_unit_zero (S := S2048x2048) hz, View.ld_unit_zero (S := S2048x512) hz]
  funext y
  obtain ⟨p, q, rfl⟩ : ∃ (p : Fin 128) (q : Fin 512), y = ix2 p q := ⟨y 0, y 1, eq_ix2 y⟩
  show k0_pay7 (F := Ideal) (iblk m c 4 t) (k0_pay4 (F := Ideal) (iblk m c 0 t) (iblk m c 1 t) (iblk m c 2 t) (iblk m c 3 t) (iblk m c 5 t) (iblk m c 6 t)) (iblk m c 7 t) (ix2 p q)
    = arr (outputAt (V m c main_arg0) (V m c main_arg1) (V m c main_arg2) (V m c main_arg3) (V m c main_arg4) (V m c main_v0) (V m c main_v1) (V m c main_v2)) (((cfg0.win 8).blk t).view.emb (ix2 p q))
  rw [emb8 t p q, arr_ix2, block0 m c t, block1 m c t, block2 m c t, block3 m c t, block4 m c t, block5 m c t, block6 m c t, block7 m c t]
  exact (Body.output_at _ _ _ _ _ _ _ _ p q).trans (outputAt_rows _ _ _ _ _ _ _ _ _ _ p q)

/-- An index of the array is in point `t`'s block iff each coordinate is in the block's range on its axis. -/
theorem mem_blk8 (t : Fin cfg0.N) (i : S1024x512.Idx) :
    i ∈ ((cfg0.win 8).blk t).view.set ↔ ∀ a : Fin 2, win0_8.index t a * S128x512.size a ≤ (i a).val ∧ (i a).val < win0_8.index t a * S128x512.size a + S128x512.size a := by
  show i ∈ ((View.whole main_v3_0).slice (win0_8.rect t)).set ↔ _
  rw [View.set_slice_whole, Rect.mem_set_unit]
  exact Iff.rfl

/-- Every row is in the block of the point `row / 128`. -/
theorem cover8 (i : S1024x512.Idx) :
    ∃ t : Fin cfg0.N, (cfg0.win 8).flush t = true ∧ i ∈ ((cfg0.win 8).blk t).view.set := by
  have hi0 : (i 0).val < 1024 := idx2_lt0 i
  have hi1 : (i 1).val < 512 := idx2_lt1 i
  obtain ⟨t, ht⟩ : ∃ t : Fin cfg0.N, t.val = (i 0).val / 128 :=
    ⟨⟨(i 0).val / 128, lt_of_lt_of_eq (by omega : (i 0).val / 128 < 8) N_0.symm⟩, rfl⟩
  obtain ⟨-, -, -, -, -, -, -, -, ⟨e0, e1⟩, -⟩ := index_facts t
  refine ⟨t, flush0_8 t, ?_⟩
  rw [mem_blk8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 512 ≤ (i 1).val ∧ (i 1).val < win0_8.index t (1 : Fin 2) * 512 + 512; omega

/-- After the run the array holds the filtered read-out. -/
theorem final8 (c : Dev nD) : (dats m 0 c).arrAt 8 cfg0.N = (arr (outputAt (V m c main_arg0) (V m c main_arg1) (V m c main_arg2) (V m c main_arg3) (V m c main_arg4) (V m c main_v0) (V m c main_v1) (V m c main_v2)) : S1024x512.Idx → EReal) :=
  (dats m 0 c).arrAt_eq_of_cover 8 _ (fun t _ => flushed8_eq m c t) cover8

/-! ## Output window 9: the new spikes -/

/-- Where an entry of point `t`'s block sits in the array: row `128 t + p`. -/
theorem emb9 (t : Fin cfg0.N) (p : Fin 128) (q : Fin 2048) :
    ((cfg0.win 9).blk t).view.emb (ix2 p q) = ix2 ⟨128 * t.val + p.val, by have := rows_le t; omega⟩ q := by
  funext a; apply Fin.ext
  obtain ⟨-, -, -, -, -, -, -, -, -, ⟨e0, e1⟩, -⟩ := index_facts t
  match a with
  | ⟨0, _⟩ => show win0_9.index t (0 : Fin 2) * 128 + 1 * p.val = 128 * t.val + p.val; omega
  | ⟨1, _⟩ => show win0_9.index t (1 : Fin 2) * 2048 + 1 * q.val = q.val; omega

/-- What point `t` writes back is block `t` of the new spikes of the arrays as the region finds them. -/
theorem flushed9_eq (c : Dev nD) (t : Fin cfg0.N) :
    (dats m 0 c).flushed 9 t = ((cfg0.win 9).blk t).view.read (Elt Ideal)
      (arr (spikeAt (V m c main_arg0) (V m c main_arg1) (V m c main_arg2) (V m c main_arg3) (V m c main_v0) (V m c main_v1)) : S1024x2048.Idx → EReal) := by
  show (cfg0.win 9).cut (grid0.coords t) ((dats m 0 c).after 9 t) = _
  rw [after0_9]
  unfold out0_9
  rw [View.canon_unit_zero hz]
  simp only [View.ld_unit_zero (S := S128x2048) hz, View.ld_unit_zero (S := S128x512) hz,
    View.ld_unit_zero (S := S2048x2048) hz, View.ld_unit_zero (S := S2048x512) hz]
  funext y
  obtain ⟨p, q, rfl⟩ : ∃ (p : Fin 128) (q : Fin 2048), y = ix2 p q := ⟨y 0, y 1, eq_ix2 y⟩
  show k0_pay4 (F := Ideal) (iblk m c 0 t) (iblk m c 1 t) (iblk m c 2 t) (iblk m c 3 t) (iblk m c 5 t) (iblk m c 6 t) (ix2 p q)
    = arr (spikeAt (V m c main_arg0) (V m c main_arg1) (V m c main_arg2) (V m c main_arg3) (V m c main_v0) (V m c main_v1)) (((cfg0.win 9).blk t).view.emb (ix2 p q))
  rw [emb9 t p q, arr_ix2, block0 m c t, block1 m c t, block2 m c t, block3 m c t, block5 m c t, block6 m c t]
  exact (Body.spike_at _ _ _ _ _ _ p q).trans (spikeAt_rows _ _ _ _ _ _ _ _ p q)

/-- An index of the array is in point `t`'s block iff each coordinate is in the block's range on its axis. -/
theorem mem_blk9 (t : Fin cfg0.N) (i : S1024x2048.Idx) :
    i ∈ ((cfg0.win 9).blk t).view.set ↔ ∀ a : Fin 2, win0_9.index t a * S128x2048.size a ≤ (i a).val ∧ (i a).val < win0_9.index t a * S128x2048.size a + S128x2048.size a := by
  show i ∈ ((View.whole main_v3_1).slice (win0_9.rect t)).set ↔ _
  rw [View.set_slice_whole, Rect.mem_set_unit]
  exact Iff.rfl

/-- Every row is in the block of the point `row / 128`. -/
theorem cover9 (i : S1024x2048.Idx) :
    ∃ t : Fin cfg0.N, (cfg0.win 9).flush t = true ∧ i ∈ ((cfg0.win 9).blk t).view.set := by
  have hi0 : (i 0).val < 1024 := idx2_lt0 i
  have hi1 : (i 1).val < 2048 := idx2_lt1 i
  obtain ⟨t, ht⟩ : ∃ t : Fin cfg0.N, t.val = (i 0).val / 128 :=
    ⟨⟨(i 0).val / 128, lt_of_lt_of_eq (by omega : (i 0).val / 128 < 8) N_0.symm⟩, rfl⟩
  obtain ⟨-, -, -, -, -, -, -, -, -, ⟨e0, e1⟩, -⟩ := index_facts t
  refine ⟨t, flush0_9 t, ?_⟩
  rw [mem_blk9]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 2048 ≤ (i 1).val ∧ (i 1).val < win0_9.index t (1 : Fin 2) * 2048 + 2048; omega

/-- After the run the array holds the new spikes. -/
theorem final9 (c : Dev nD) : (dats m 0 c).arrAt 9 cfg0.N = (arr (spikeAt (V m c main_arg0) (V m c main_arg1) (V m c main_arg2) (V m c main_arg3) (V m c main_v0) (V m c main_v1)) : S1024x2048.Idx → EReal) :=
  (dats m 0 c).arrAt_eq_of_cover 9 _ (fun t _ => flushed9_eq m c t) cover9

/-! ## Output window 10: the new potentials -/

/-- Where an entry of point `t`'s block sits in the array: row `128 t + p`. -/
theorem emb10 (t : Fin cfg0.N) (p : Fin 128) (q : Fin 2048) :
    ((cfg0.win 10).blk t).view.emb (ix2 p q) = ix2 ⟨128 * t.val + p.val, by have := rows_le t; omega⟩ q := by
  funext a; apply Fin.ext
  obtain ⟨-, -, -, -, -, -, -, -, -, -, ⟨e0, e1⟩, -⟩ := index_facts t
  match a with
  | ⟨0, _⟩ => show win0_10.index t (0 : Fin 2) * 128 + 1 * p.val = 128 * t.val + p.val; omega
  | ⟨1, _⟩ => show win0_10.index t (1 : Fin 2) * 2048 + 1 * q.val = q.val; omega

/-- What point `t` writes back is block `t` of the new potentials of the arrays as the region finds them. -/
theorem flushed10_eq (c : Dev nD) (t : Fin cfg0.N) :
    (dats m 0 c).flushed 10 t = ((cfg0.win 10).blk t).view.read (Elt Ideal)
      (arr (potentialAt (V m c main_arg0) (V m c main_arg1) (V m c main_arg2) (V m c main_v0) (V m c main_v1)) : S1024x2048.Idx → EReal) := by
  show (cfg0.win 10).cut (grid0.coords t) ((dats m 0 c).after 10 t) = _
  rw [after0_10]
  unfold out0_10
  rw [View.canon_unit_zero hz]
  simp only [View.ld_unit_zero (S := S128x2048) hz, View.ld_unit_zero (S := S128x512) hz,
    View.ld_unit_zero (S := S2048x2048) hz, View.ld_unit_zero (S := S2048x512) hz]
  funext y
  obtain ⟨p, q, rfl⟩ : ∃ (p : Fin 128) (q : Fin 2048), y = ix2 p q := ⟨y 0, y 1, eq_ix2 y⟩
  show k0_pay1 (F := Ideal) (iblk m c 0 t) (iblk m c 1 t) (iblk m c 2 t) (iblk m c 5 t) (iblk m c 6 t) (ix2 p q)
    = arr (potentialAt (V m c main_arg0) (V m c main_arg1) (V m c main_arg2) (V m c main_v0) (V m c main_v1)) (((cfg0.win 10).blk t).view.emb (ix2 p q))
  rw [emb10 t p q, arr_ix2, block0 m c t, block1 m c t, block2 m c t, block5 m c t, block6 m c t]
  exact (Body.potential_at _ _ _ _ _ p q).trans (potentialAt_rows _ _ _ _ _ _ _ p q)

/-- An index of the array is in point `t`'s block iff each coordinate is in the block's range on its axis. -/
theorem mem_blk10 (t : Fin cfg0.N) (i : S1024x2048.Idx) :
    i ∈ ((cfg0.win 10).blk t).view.set ↔ ∀ a : Fin 2, win0_10.index t a * S128x2048.size a ≤ (i a).val ∧ (i a).val < win0_10.index t a * S128x2048.size a + S128x2048.size a := by
  show i ∈ ((View.whole main_v3_2).slice (win0_10.rect t)).set ↔ _
  rw [View.set_slice_whole, Rect.mem_set_unit]
  exact Iff.rfl

/-- Every row is in the block of the point `row / 128`. -/
theorem cover10 (i : S1024x2048.Idx) :
    ∃ t : Fin cfg0.N, (cfg0.win 10).flush t = true ∧ i ∈ ((cfg0.win 10).blk t).view.set := by
  have hi0 : (i 0).val < 1024 := idx2_lt0 i
  have hi1 : (i 1).val < 2048 := idx2_lt1 i
  obtain ⟨t, ht⟩ : ∃ t : Fin cfg0.N, t.val = (i 0).val / 128 :=
    ⟨⟨(i 0).val / 128, lt_of_lt_of_eq (by omega : (i 0).val / 128 < 8) N_0.symm⟩, rfl⟩
  obtain ⟨-, -, -, -, -, -, -, -, -, -, ⟨e0, e1⟩, -⟩ := index_facts t
  refine ⟨t, flush0_10 t, ?_⟩
  rw [mem_blk10]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 2048 ≤ (i 1).val ∧ (i 1).val < win0_10.index t (1 : Fin 2) * 2048 + 2048; omega

/-- After the run the array holds the new potentials. -/
theorem final10 (c : Dev nD) : (dats m 0 c).arrAt 10 cfg0.N = (arr (potentialAt (V m c main_arg0) (V m c main_arg1) (V m c main_arg2) (V m c main_v0) (V m c main_v1)) : S1024x2048.Idx → EReal) :=
  (dats m 0 c).arrAt_eq_of_cover 10 _ (fun t _ => flushed10_eq m c t) cover10

/-! ## Output window 11: the new refractory counters -/

/-- Where an entry of point `t`'s block sits in the array: row `128 t + p`. -/
theorem emb11 (t : Fin cfg0.N) (p : Fin 128) (q : Fin 2048) :
    ((cfg0.win 11).blk t).view.emb (ix2 p q) = ix2 ⟨128 * t.val + p.val, by have := rows_le t; omega⟩ q := by
  funext a; apply Fin.ext
  obtain ⟨-, -, -, -, -, -, -, -, -, -, -, ⟨e0, e1⟩, -⟩ := index_facts t
  match a with
  | ⟨0, _⟩ => show win0_11.index t (0 : Fin 2) * 128 + 1 * p.val = 128 * t.val + p.val; omega
  | ⟨1, _⟩ => show win0_11.index t (1 : Fin 2) * 2048 + 1 * q.val = q.val; omega

/-- What point `t` writes back is block `t` of the new refractory counters of the arrays as the region finds them. -/
theorem flushed11_eq (c : Dev nD) (t : Fin cfg0.N) :
    (dats m 0 c).flushed 11 t = ((cfg0.win 11).blk t).view.read (Elt Ideal)
      (arr (counterAt (V m c main_arg0) (V m c main_arg1) (V m c main_arg2) (V m c main_arg3) (V m c main_v0) (V m c main_v1)) : S1024x2048.Idx → EReal) := by
  show (cfg0.win 11).cut (grid0.coords t) ((dats m 0 c).after 11 t) = _
  rw [after0_11]
  unfold out0_11
  rw [View.canon_unit_zero hz]
  simp only [View.ld_unit_zero (S := S128x2048) hz, View.ld_unit_zero (S := S128x512) hz,
    View.ld_unit_zero (S := S2048x2048) hz, View.ld_unit_zero (S := S2048x512) hz]
  funext y
  obtain ⟨p, q, rfl⟩ : ∃ (p : Fin 128) (q : Fin 2048), y = ix2 p q := ⟨y 0, y 1, eq_ix2 y⟩
  show k0_pay6 (F := Ideal) (k0_pay5 (F := Ideal) (iblk m c 0 t) (iblk m c 1 t) (iblk m c 2 t) (iblk m c 3 t) (iblk m c 5 t) (iblk m c 6 t)) (ix2 p q)
    = arr (counterAt (V m c main_arg0) (V m c main_arg1) (V m c main_arg2) (V m c main_arg3) (V m c main_v0) (V m c main_v1)) (((cfg0.win 11).blk t).view.emb (ix2 p q))
  rw [emb11 t p q, arr_ix2, block0 m c t, block1 m c t, block2 m c t, block3 m c t, block5 m c t, block6 m c t]
  exact (Body.counter_at _ _ _ _ _ _ p q).trans (counterAt_rows _ _ _ _ _ _ _ _ p q)

/-- An index of the array is in point `t`'s block iff each coordinate is in the block's range on its axis. -/
theorem mem_blk11 (t : Fin cfg0.N) (i : S1024x2048.Idx) :
    i ∈ ((cfg0.win 11).blk t).view.set ↔ ∀ a : Fin 2, win0_11.index t a * S128x2048.size a ≤ (i a).val ∧ (i a).val < win0_11.index t a * S128x2048.size a + S128x2048.size a := by
  show i ∈ ((View.whole main_v3_3).slice (win0_11.rect t)).set ↔ _
  rw [View.set_slice_whole, Rect.mem_set_unit]
  exact Iff.rfl

/-- Every row is in the block of the point `row / 128`. -/
theorem cover11 (i : S1024x2048.Idx) :
    ∃ t : Fin cfg0.N, (cfg0.win 11).flush t = true ∧ i ∈ ((cfg0.win 11).blk t).view.set := by
  have hi0 : (i 0).val < 1024 := idx2_lt0 i
  have hi1 : (i 1).val < 2048 := idx2_lt1 i
  obtain ⟨t, ht⟩ : ∃ t : Fin cfg0.N, t.val = (i 0).val / 128 :=
    ⟨⟨(i 0).val / 128, lt_of_lt_of_eq (by omega : (i 0).val / 128 < 8) N_0.symm⟩, rfl⟩
  obtain ⟨-, -, -, -, -, -, -, -, -, -, -, ⟨e0, e1⟩, -⟩ := index_facts t
  refine ⟨t, flush0_11 t, ?_⟩
  rw [mem_blk11]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 2048 ≤ (i 1).val ∧ (i 1).val < win0_11.index t (1 : Fin 2) * 2048 + 2048; omega

/-- After the run the array holds the new refractory counters. -/
theorem final11 (c : Dev nD) : (dats m 0 c).arrAt 11 cfg0.N = (arr (counterAt (V m c main_arg0) (V m c main_arg1) (V m c main_arg2) (V m c main_arg3) (V m c main_v0) (V m c main_v1)) : S1024x2048.Idx → EReal) :=
  (dats m 0 c).arrAt_eq_of_cover 11 _ (fun t _ => flushed11_eq m c t) cover11

/-! ## Output window 12: the surrogate factors -/

/-- Where an entry of point `t`'s block sits in the array: row `128 t + p`. -/
theorem emb12 (t : Fin cfg0.N) (p : Fin 128) (q : Fin 2048) :
    ((cfg0.win 12).blk t).view.emb (ix2 p q) = ix2 ⟨128 * t.val + p.val, by have := rows_le t; omega⟩ q := by
  funext a; apply Fin.ext
  obtain ⟨-, -, -, -, -, -, -, -, -, -, -, -, ⟨e0, e1⟩⟩ := index_facts t
  match a with
  | ⟨0, _⟩ => show win0_12.index t (0 : Fin 2) * 128 + 1 * p.val = 128 * t.val + p.val; omega
  | ⟨1, _⟩ => show win0_12.index t (1 : Fin 2) * 2048 + 1 * q.val = q.val; omega

/-- What point `t` writes back is block `t` of the surrogate factors of the arrays as the region finds them. -/
theorem flushed12_eq (c : Dev nD) (t : Fin cfg0.N) :
    (dats m 0 c).flushed 12 t = ((cfg0.win 12).blk t).view.read (Elt Ideal)
      (arr (surrogateAt (V m c main_arg0) (V m c main_arg1) (V m c main_arg2) (V m c main_arg3) (V m c main_v0) (V m c main_v1)) : S1024x2048.Idx → EReal) := by
  show (cfg0.win 12).cut (grid0.coords t) ((dats m 0 c).after 12 t) = _
  rw [after0_12]
  unfold out0_12
  rw [View.canon_unit_zero hz]
  simp only [View.ld_unit_zero (S := S128x2048) hz, View.ld_unit_zero (S := S128x512) hz,
    View.ld_unit_zero (S := S2048x2048) hz, View.ld_unit_zero (S := S2048x512) hz]
  funext y
  obtain ⟨p, q, rfl⟩ : ∃ (p : Fin 128) (q : Fin 2048), y = ix2 p q := ⟨y 0, y 1, eq_ix2 y⟩
  show k0_pay8 (F := Ideal) (k0_pay2 (F := Ideal) (iblk m c 0 t) (iblk m c 1 t) (iblk m c 2 t) (iblk m c 5 t) (iblk m c 6 t)) (k0_pay3 (F := Ideal) (iblk m c 3 t)) (ix2 p q)
    = arr (surrogateAt (V m c main_arg0) (V m c main_arg1) (V m c main_arg2) (V m c main_arg3) (V m c main_v0) (V m c main_v1)) (((cfg0.win 12).blk t).view.emb (ix2 p q))
  rw [emb12 t p q, arr_ix2, block0 m c t, block1 m c t, block2 m c t, block3 m c t, block5 m c t, block6 m c t]
  exact (Body.surrogate_at _ _ _ _ _ _ p q).trans (surrogateAt_rows _ _ _ _ _ _ _ _ p q)

/-- An index of the array is in point `t`'s block iff each coordinate is in the block's range on its axis. -/
theorem mem_blk12 (t : Fin cfg0.N) (i : S1024x2048.Idx) :
    i ∈ ((cfg0.win 12).blk t).view.set ↔ ∀ a : Fin 2, win0_12.index t a * S128x2048.size a ≤ (i a).val ∧ (i a).val < win0_12.index t a * S128x2048.size a + S128x2048.size a := by
  show i ∈ ((View.whole main_v3_4).slice (win0_12.rect t)).set ↔ _
  rw [View.set_slice_whole, Rect.mem_set_unit]
  exact Iff.rfl

/-- Every row is in the block of the point `row / 128`. -/
theorem cover12 (i : S1024x2048.Idx) :
    ∃ t : Fin cfg0.N, (cfg0.win 12).flush t = true ∧ i ∈ ((cfg0.win 12).blk t).view.set := by
  have hi0 : (i 0).val < 1024 := idx2_lt0 i
  have hi1 : (i 1).val < 2048 := idx2_lt1 i
  obtain ⟨t, ht⟩ : ∃ t : Fin cfg0.N, t.val = (i 0).val / 128 :=
    ⟨⟨(i 0).val / 128, lt_of_lt_of_eq (by omega : (i 0).val / 128 < 8) N_0.symm⟩, rfl⟩
  obtain ⟨-, -, -, -, -, -, -, -, -, -, -, -, ⟨e0, e1⟩⟩ := index_facts t
  refine ⟨t, flush0_12 t, ?_⟩
  rw [mem_blk12]
  intro a
  match a with
  | ⟨0, _⟩ => show win0_12.index t (0 : Fin 2) * 128 ≤ (i 0).val ∧ (i 0).val < win0_12.index t (0 : Fin 2) * 128 + 128; omega
  | ⟨1, _⟩ => show win0_12.index t (1 : Fin 2) * 2048 ≤ (i 1).val ∧ (i 1).val < win0_12.index t (1 : Fin 2) * 2048 + 2048; omega

/-- After the run the array holds the surrogate factors. -/
theorem final12 (c : Dev nD) : (dats m 0 c).arrAt 12 cfg0.N = (arr (surrogateAt (V m c main_arg0) (V m c main_arg1) (V m c main_arg2) (V m c main_arg3) (V m c main_v0) (V m c main_v1)) : S1024x2048.Idx → EReal) :=
  (dats m 0 c).arrAt_eq_of_cover 12 _ (fun t _ => flushed12_eq m c t) cover12

end Cert.KernelIdeal.Arrays

end
-- ==== Proof.KernelRun.lean ====
/-
  The kernel program's run, read: its seven results as the layer's step (`Cert.LifStep`) of the ARGUMENT arrays.

  Before the region the three weight matrices are converted to half width — the identity on the extended reals — so
  the weight arrays the region finds are the arguments; the five batch arrays it finds are the arguments as launched.
  After the region two entrywise lines compute the input traces from arguments the region does not change: `inputs`
  and `z` are staged by input windows and never written back, the two old traces are touched by no window.
-/
import proofs.«176733_j12575664243445_2_alg».proof.Proof.KernelArrays

noncomputable section

namespace Cert.KernelIdeal.Arrays

open Cert.KernelIdeal Cert.KernelIdeal.Gen Cert.LifStep Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The weight arrays the region finds -/

theorem found_w_in (c : Dev nD) : (V m c main_v0 : S2048x2048.Idx → EReal) = m ((c : Thread nD τ).loc main_arg7) := by
  show StableHlo.after hostOps0 (fun b => m (c, b)) (Proc.devRef .tc main_v0) = _
  after_results
  rfl

theorem found_w_rec (c : Dev nD) : (V m c main_v1 : S2048x2048.Idx → EReal) = m ((c : Thread nD τ).loc main_arg8) := by
  show StableHlo.after hostOps0 (fun b => m (c, b)) (Proc.devRef .tc main_v1) = _
  after_results
  rfl

theorem found_w_out (c : Dev nD) : (V m c main_v2 : S2048x512.Idx → EReal) = m ((c : Thread nD τ).loc main_arg9) := by
  show StableHlo.after hostOps0 (fun b => m (c, b)) (Proc.devRef .tc main_v2) = _
  after_results
  rfl

/-! ## The two traces, computed after the region -/

/-- A scaled-and-shifted array, entry by entry. -/
theorem traced_eq (E X : Arr 1024 2048) :
    addf (mulf E (broadcastInDim S1024x2048 ![] bcast_S_S1024x2048 (constant (F := Ideal) S_ .f32 0x3F7383C6#32))) X
      = arr (tracedAt E X) := by
  funext i
  obtain ⟨p, q, rfl⟩ : ∃ (p : Fin 1024) (q : Fin 2048), i = ix2 p q := ⟨i 0, i 1, eq_ix2 i⟩
  show E (ix2 p q) * broadcastInDim S1024x2048 ![] bcast_S_S1024x2048 (constant (F := Ideal) S_ .f32 0x3F7383C6#32) (ix2 p q)
    + X (ix2 p q) = _
  rw [broadcastInDim_scalar_apply]
  rfl

/-- After the region `inputs` (the array of input window 0) is as launched. -/
theorem left_inputs (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_arr spec0 launch0.win.arr_inj c _ _ 0).trans
    (((dats m 0 c).arrAt_in 0 rfl _).trans ((A_eq m c 0).trans (V_main_arg0 m c)))

/-- After the region `z` (the array of input window 2) is as launched. -/
theorem left_z (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_arr spec0 launch0.win.arr_inj c _ _ 2).trans
    (((dats m 0 c).arrAt_in 2 rfl _).trans ((A_eq m c 2).trans (V_main_arg2 m c)))

/-- The old input trace is no window's array: the region leaves it as launched. -/
theorem left_trace_in (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans
    (V_main_arg5 m c)

theorem left_trace_rec (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by exact (by decide : ∀ w, Pipeline.arrRef spec0 w ≠ main_arg6))).trans
    (V_main_arg6 m c)

/-- The new input trace. -/
theorem trace_in (c : Dev nD) :
    Pipeline.afterTail₀ cfgs (dats m) 0 (V0 m) [hostOps1] c main_v6
      = arr (tracedAt (m ((c : Thread nD τ).loc main_arg5)) (m ((c : Thread nD τ).loc main_arg0))) := by
  unfold Pipeline.afterTail₀
  show StableHlo.after hostOps1 _ (Proc.devRef .tc main_v6) = _
  after_results
  rw [left_inputs m c, left_trace_in m c]
  exact traced_eq _ _

/-- The new recurrent trace. -/
theorem trace_rec (c : Dev nD) :
    Pipeline.afterTail₀ cfgs (dats m) 0 (V0 m) [hostOps1] c main_v9
      = arr (tracedAt (m ((c : Thread nD τ).loc main_arg6)) (m ((c : Thread nD τ).loc main_arg2))) := by
  unfold Pipeline.afterTail₀
  show StableHlo.after hostOps1 _ (Proc.devRef .tc main_v9) = _
  after_results
  rw [left_z m c, left_trace_rec m c]
  exact traced_eq _ _

/-! ## The step's arrays depend on the arrays only -/

theorem output_congr {X X' V V' Z Z' R R' : Arr 1024 2048} {O O' : Arr 1024 512} {W W' U U' : Arr 2048 2048} {Y Y' : Arr 2048 512}
    (hX : X = X') (hV : V = V') (hZ : Z = Z') (hR : R = R') (hO : O = O') (hW : W = W') (hU : U = U') (hY : Y = Y') :
    arr (outputAt X V Z R O W U Y) = arr (outputAt X' V' Z' R' O' W' U' Y') := by
  subst hX hV hZ hR hO hW hU hY; rfl
theorem spike_congr {X X' V V' Z Z' R R' : Arr 1024 2048} {W W' U U' : Arr 2048 2048}
    (hX : X = X') (hV : V = V') (hZ : Z = Z') (hR : R = R') (hW : W = W') (hU : U = U') :
    arr (spikeAt X V Z R W U) = arr (spikeAt X' V' Z' R' W' U') := by
  subst hX hV hZ hR hW hU; rfl
theorem potential_congr {X X' V V' Z Z' : Arr 1024 2048} {W W' U U' : Arr 2048 2048}
    (hX : X = X') (hV : V = V') (hZ : Z = Z') (hW : W = W') (hU : U = U') :
    arr (potentialAt X V Z W U) = arr (potentialAt X' V' Z' W' U') := by
  subst hX hV hZ hW hU; rfl
theorem counter_congr {X X' V V' Z Z' R R' : Arr 1024 2048} {W W' U U' : Arr 2048 2048}
    (hX : X = X') (hV : V = V') (hZ : Z = Z') (hR : R = R') (hW : W = W') (hU : U = U') :
    arr (counterAt X V Z R W U) = arr (counterAt X' V' Z' R' W' U') := by
  subst hX hV hZ hR hW hU; rfl
theorem surrogate_congr {X X' V V' Z Z' R R' : Arr 1024 2048} {W W' U U' : Arr 2048 2048}
    (hX : X = X') (hV : V = V') (hZ : Z = Z') (hR : R = R') (hW : W = W') (hU : U = U') :
    arr (surrogateAt X V Z R W U) = arr (surrogateAt X' V' Z' R' W' U') := by
  subst hX hV hZ hR hW hU; rfl

/-! ## The five result arrays of the region, of the arguments -/

theorem result_output (c : Dev nD) : (dats m 0 c).arrAt 8 cfg0.N = (arr (outputAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) : S1024x512.Idx → EReal) :=
  (final8 m c).trans (output_congr (V_main_arg0 m c) (V_main_arg1 m c) (V_main_arg2 m c) (V_main_arg3 m c) (V_main_arg4 m c)
    (found_w_in m c) (found_w_rec m c) (found_w_out m c))
theorem result_spike (c : Dev nD) : (dats m 0 c).arrAt 9 cfg0.N = (arr (spikeAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) : S1024x2048.Idx → EReal) :=
  (final9 m c).trans (spike_congr (V_main_arg0 m c) (V_main_arg1 m c) (V_main_arg2 m c) (V_main_arg3 m c)
    (found_w_in m c) (found_w_rec m c))
theorem result_potential (c : Dev nD) : (dats m 0 c).arrAt 10 cfg0.N = (arr (potentialAt (m ((c : Thread nD τ).loc main_arg0)) (m ((c : Thread nD τ).loc main_arg1)) (m ((c : Thread nD τ).loc main_arg2)) (m ((c : Thread nD τ).loc main_arg7)) (m ((c : Thread nD τ).loc main_arg8))) : S1024x2048.Idx → EReal) :=
  (final10 m c).trans (potential_congr (V_main_arg0 m c) (V_main_arg1 m c) (V_main_arg2 m c)
    (found_w_in m c) (found_w_rec m c))
theorem result_counter (c : Dev nD) : (dats m 0 c).arrAt 11 cfg0.N = (arr (counterAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) : S1024x2048.Idx → EReal) :=
  (final11 m c).trans (counter_congr (V_main_arg0 m c) (V_main_arg1 m c) (V_main_arg2 m c) (V_main_arg3 m c)
    (found_w_in m c) (found_w_rec m c))
theorem result_surrogate (c : Dev nD) : (dats m 0 c).arrAt 12 cfg0.N = (arr (surrogateAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) : S1024x2048.Idx → EReal) :=
  (final12 m c).trans (surrogate_congr (V_main_arg0 m c) (V_main_arg1 m c) (V_main_arg2 m c) (V_main_arg3 m c)
    (found_w_in m c) (found_w_rec m c))

/-! ## The frame run's post, buffer by buffer -/

section Post

variable (r : PUnit × MemSt nD τ sig (Elt Ideal))
  (h : Pipeline.FramePost cfgs (dats m) 0 (Pipeline.afterTail₀ cfgs (dats m) 0 (V0 m) [hostOps1]) r) (c : Dev nD)
include h

theorem post_output : r.2.mem ((c : Thread nD τ).loc main_v3_0) = (arr (outputAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) : S1024x512.Idx → EReal) :=
  ((h c).1 8).trans (result_output m c)
theorem post_spike : r.2.mem ((c : Thread nD τ).loc main_v3_1) = (arr (spikeAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) : S1024x2048.Idx → EReal) :=
  ((h c).1 9).trans (result_spike m c)
theorem post_potential : r.2.mem ((c : Thread nD τ).loc main_v3_2) = (arr (potentialAt (m ((c : Thread nD τ).loc main_arg0)) (m ((c : Thread nD τ).loc main_arg1)) (m ((c : Thread nD τ).loc main_arg2)) (m ((c : Thread nD τ).loc main_arg7)) (m ((c : Thread nD τ).loc main_arg8))) : S1024x2048.Idx → EReal) :=
  ((h c).1 10).trans (result_potential m c)
theorem post_counter : r.2.mem ((c : Thread nD τ).loc main_v3_3) = (arr (counterAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) : S1024x2048.Idx → EReal) :=
  ((h c).1 11).trans (result_counter m c)
theorem post_surrogate : r.2.mem ((c : Thread nD τ).loc main_v3_4) = (arr (surrogateAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) : S1024x2048.Idx → EReal) :=
  ((h c).1 12).trans (result_surrogate m c)
theorem post_trace_in : r.2.mem ((c : Thread nD τ).loc main_v6) = (arr (tracedAt (m ((c : Thread nD τ).loc main_arg5)) (m ((c : Thread nD τ).loc main_arg0))) : S1024x2048.Idx → EReal) :=
  ((h c).2 main_v6 (Pipeline.mem_restRefs_of main_v6 (by decide) (by decide))).trans (trace_in m c)
theorem post_trace_rec : r.2.mem ((c : Thread nD τ).loc main_v9) = (arr (tracedAt (m ((c : Thread nD τ).loc main_arg6)) (m ((c : Thread nD τ).loc main_arg2))) : S1024x2048.Idx → EReal) :=
  ((h c).2 main_v9 (Pipeline.mem_restRefs_of main_v9 (by decide) (by decide))).trans (trace_rec m c)
theorem kept0 : r.2.mem ((c : Thread nD τ).loc main_arg0) = m ((c : Thread nD τ).loc main_arg0) :=
  ((h c).1 0).trans (((dats m 0 c).arrAt_in 0 rfl _).trans ((A_eq m c 0).trans (V_main_arg0 m c)))
theorem kept1 : r.2.mem ((c : Thread nD τ).loc main_arg1) = m ((c : Thread nD τ).loc main_arg1) :=
  ((h c).1 1).trans (((dats m 0 c).arrAt_in 1 rfl _).trans ((A_eq m c 1).trans (V_main_arg1 m c)))
theorem kept2 : r.2.mem ((c : Thread nD τ).loc main_arg2) = m ((c : Thread nD τ).loc main_arg2) :=
  ((h c).1 2).trans (((dats m 0 c).arrAt_in 2 rfl _).trans ((A_eq m c 2).trans (V_main_arg2 m c)))
theorem kept3 : r.2.mem ((c : Thread nD τ).loc main_arg3) = m ((c : Thread nD τ).loc main_arg3) :=
  ((h c).1 3).trans (((dats m 0 c).arrAt_in 3 rfl _).trans ((A_eq m c 3).trans (V_main_arg3 m c)))
theorem kept4 : r.2.mem ((c : Thread nD τ).loc main_arg4) = m ((c : Thread nD τ).loc main_arg4) :=
  ((h c).1 4).trans (((dats m 0 c).arrAt_in 4 rfl _).trans ((A_eq m c 4).trans (V_main_arg4 m c)))
theorem kept5 : r.2.mem ((c : Thread nD τ).loc main_arg5) = m ((c : Thread nD τ).loc main_arg5) :=
  ((h c).2 main_arg5 (Pipeline.mem_restRefs_of main_arg5 (by decide) (by decide))).trans (W_main_arg5 m (dats m) c)
theorem kept6 : r.2.mem ((c : Thread nD τ).loc main_arg6) = m ((c : Thread nD τ).loc main_arg6) :=
  ((h c).2 main_arg6 (Pipeline.mem_restRefs_of main_arg6 (by decide) (by decide))).trans (W_main_arg6 m (dats m) c)
theorem kept7 : r.2.mem ((c : Thread nD τ).loc main_arg7) = m ((c : Thread nD τ).loc main_arg7) :=
  ((h c).2 main_arg7 (Pipeline.mem_restRefs_of main_arg7 (by decide) (by decide))).trans (W_main_arg7 m (dats m) c)
theorem kept8 : r.2.mem ((c : Thread nD τ).loc main_arg8) = m ((c : Thread nD τ).loc main_arg8) :=
  ((h c).2 main_arg8 (Pipeline.mem_restRefs_of main_arg8 (by decide) (by decide))).trans (W_main_arg8 m (dats m) c)
theorem kept9 : r.2.mem ((c : Thread nD τ).loc main_arg9) = m ((c : Thread nD τ).loc main_arg9) :=
  ((h c).2 main_arg9 (Pipeline.mem_restRefs_of main_arg9 (by decide) (by decide))).trans (W_main_arg9 m (dats m) c)

end Post

/-! ## The run -/

/-- Every weakly fair execution of the kernel program terminates with its seven results at the step's arrays of the
    arguments and the arguments unchanged. -/
theorem run : θ_run defs (onTc (τ := τ) (main (F := Ideal))) ⟨m, fun _ => 0, ρ⟩ fun r => ∀ c : Dev nD,
      r.2.mem ((c : Thread nD τ).loc main_v3_0) = (arr (outputAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) : S1024x512.Idx → EReal)
      ∧ r.2.mem ((c : Thread nD τ).loc main_v3_1) = (arr (spikeAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) : S1024x2048.Idx → EReal)
      ∧ r.2.mem ((c : Thread nD τ).loc main_v3_2) = (arr (potentialAt (m ((c : Thread nD τ).loc main_arg0)) (m ((c : Thread nD τ).loc main_arg1)) (m ((c : Thread nD τ).loc main_arg2)) (m ((c : Thread nD τ).loc main_arg7)) (m ((c : Thread nD τ).loc main_arg8))) : S1024x2048.Idx → EReal)
      ∧ r.2.mem ((c : Thread nD τ).loc main_v3_3) = (arr (counterAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) : S1024x2048.Idx → EReal)
      ∧ r.2.mem ((c : Thread nD τ).loc main_v6) = (arr (tracedAt (m ((c : Thread nD τ).loc main_arg5)) (m ((c : Thread nD τ).loc main_arg0))) : S1024x2048.Idx → EReal)
      ∧ r.2.mem ((c : Thread nD τ).loc main_v9) = (arr (tracedAt (m ((c : Thread nD τ).loc main_arg6)) (m ((c : Thread nD τ).loc main_arg2))) : S1024x2048.Idx → EReal)
      ∧ r.2.mem ((c : Thread nD τ).loc main_v3_4) = (arr (surrogateAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))) : S1024x2048.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post_output m r h c, post_spike m r h c, post_potential m r h c, post_counter m r h c,
      post_trace_in m r h c, post_trace_rec m r h c, post_surrogate m r h c,
      kept0 m r h c, kept1 m r h c, kept2 m r h c, kept3 m r h c, kept4 m r h c,
      kept5 m r h c, kept6 m r h c, kept7 m r h c, kept8 m r h c, kept9 m r h c⟩)
    (run_main m ρ)

end Cert.KernelIdeal.Arrays

end
-- ==== Proof.lean ====
/-
  The certificate of a leaky integrate-and-fire step computed by one row-tiled kernel against its array reference.

  Both programs compute, from the input spikes, membrane potentials, previous spikes, refractory counters, filtered
  output, two traces and three weight matrices, the seven results of one step: the filtered read-out, the new spikes,
  the new potentials, the new refractory counters, the two new traces and the surrogate-gradient factors
  (Proof/LifStep.lean states them entry by entry on the extended reals). The kernel works on blocks of 128 batch rows
  with the weights resident, rounds its matrix operands to half width and multiplies the read-out product by the
  constant one; the reference works on whole arrays and multiplies the read-out WEIGHTS by one. On the extended reals
  a change of format is the identity, a product into a zero accumulator and the host's product are the same sum, a row
  of a result depends on that row of the batch arrays only, and multiplying by one changes nothing: the two programs
  compute the same seven arrays, for any contents of the arguments.

  The three frames are the generated ones (the reference's is its generated run with the results dropped); the
  idealization rewrote nothing, so it preserves trivially.
-/
import proofs.«176733_j12575664243445_2_alg».proof.Defs
import proofs.«176733_j12575664243445_2_alg».proof.Proof.Gen.Kernel
import proofs.«176733_j12575664243445_2_alg».proof.Proof.Gen.Kernel.Skeleton
import proofs.«176733_j12575664243445_2_alg».proof.Proof.Gen.Kernel.Launch
import proofs.«176733_j12575664243445_2_alg».proof.Proof.Gen.Kernel.Points
import proofs.«176733_j12575664243445_2_alg».proof.Proof.Gen.Kernel.Frame
import proofs.«176733_j12575664243445_2_alg».proof.Proof.Gen.KernelIdeal
import proofs.«176733_j12575664243445_2_alg».proof.Proof.Gen.KernelIdeal.Skeleton
import proofs.«176733_j12575664243445_2_alg».proof.Proof.Gen.KernelIdeal.Launch
import proofs.«176733_j12575664243445_2_alg».proof.Proof.Gen.KernelIdeal.Points
import proofs.«176733_j12575664243445_2_alg».proof.Proof.Gen.KernelIdeal.Frame
import proofs.«176733_j12575664243445_2_alg».proof.Proof.Gen.ReferenceIdeal
import proofs.«176733_j12575664243445_2_alg».proof.Proof.Gen.Pre_finite_inputs
import proofs.«176733_j12575664243445_2_alg».proof.Proof.Gen.ReferenceIdeal.Run
import proofs.«176733_j12575664243445_2_alg».proof.Proof.Gen.ReferenceIdeal.Read
import proofs.«176733_j12575664243445_2_alg».proof.Proof.ReferenceStep
import proofs.«176733_j12575664243445_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2.2.2.2.2.2)
    (Cert.ReferenceIdeal.Value.run (F := Ideal) m ρ)

/-- The ideal pass rewrote no operation. -/
theorem preserves : Cert.preserves_Kernel_KernelIdeal := trivial

/-- The kernel program ends with its seven results at the step's arrays of its arguments (`Arrays.run`), the
    reference at its stages' composed terms, each of which is the same step's array of the reference's arguments
    (`Step.*_eq`); the arguments agree. -/
theorem algebraic : Cert.algebraic_KernelIdeal_ReferenceIdeal := by
  intro m ρ m' ρ' _ hagree
  refine ⟨_, _, _, _, _, _, _, Cert.KernelIdeal.Arrays.run m ρ, ?_⟩
  refine (θ_run Cert.ReferenceIdeal.defs _ _).mono (fun _ h c => ?_) (Cert.ReferenceIdeal.Value.run (F := Ideal) m' ρ')
  obtain ⟨h0, h1, h2, h3, h4, h5, h6, hargs⟩ := h c
  obtain ⟨a0, a1, a2, a3, a4, a5, a6, a7, a8, a9⟩ := hagree c
  refine ⟨h0.trans ?_, h1.trans ?_, h2.trans ?_, h3.trans ?_, h4.trans ?_, h5.trans ?_, h6.trans ?_, hargs⟩
  · rw [Cert.ReferenceIdeal.Read.val_main_v30_eq, Cert.ReferenceIdeal.Step.output_eq, a0, a1, a2, a3, a4, a7, a8, a9]
  · rw [Cert.ReferenceIdeal.Read.val_main_v18_eq, Cert.ReferenceIdeal.Step.spike_eq, a0, a1, a2, a3, a7, a8]
  · rw [Cert.ReferenceIdeal.Read.val_main_v8_eq, Cert.ReferenceIdeal.Step.potential_eq, a0, a1, a2, a7, a8]
  · rw [Cert.ReferenceIdeal.Read.val_main_v24_eq, Cert.ReferenceIdeal.Step.counter_eq, a0, a1, a2, a3, a7, a8]
  · rw [Cert.ReferenceIdeal.Read.val_main_v45_eq, Cert.ReferenceIdeal.Step.traced_in_eq, a0, a5]
  · rw [Cert.ReferenceIdeal.Read.val_main_v48_eq, Cert.ReferenceIdeal.Step.traced_rec_eq, a2, a6]
  · rw [Cert.ReferenceIdeal.Read.val_main_v42_eq, Cert.ReferenceIdeal.Step.surrogate_eq, a0, a1, a2, a3, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
